-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x512 : Shape := ⟨3, ![64, 4096, 512]⟩
abbrev S64x256x512 : Shape := ⟨3, ![64, 256, 512]⟩
abbrev S_ : Shape := ⟨0, ![]⟩

class Facts : Prop where
  bcast_S_S64x4096x512 : S_.BroadcastsInDim S64x4096x512 (![] : Fin 0 → Fin S64x4096x512.rank)
  reducesTo_S64x4096x512_S_d0_1_2 : S64x4096x512.ReducesTo [0, 1, 2] S_
  h_S_ : 0 < S_.numel
  bcast_S_S64x256x512 : S_.BroadcastsInDim S64x256x512 (![] : Fin 0 → Fin S64x256x512.rank)
  reducesTo_S64x256x512_S_d0_1_2 : S64x256x512.ReducesTo [0, 1, 2] S_

variable [Facts]

def fn {F : FTy → Type} [FloatOps F] (main_arg0 : FVec F S64x4096x512 .f32) (main_arg1 : FVec F S64x256x512 .f32) : IVec S_ 1 :=
  let main_v0 : FVec F S64x4096x512 .f32 := Host.absf main_arg0
  let main_cst : FVec F S_ .f32 := constant S_ .f32 0x7F800000#32
  let main_v1 : FVec F S64x4096x512 .f32 := broadcastInDim S64x4096x512 ![] bcast_S_S64x4096x512 main_cst
  let main_v2 : IVec S64x4096x512 1 := cmpf .olt main_v0 main_v1
  let main_c : IVec S_ 1 := constantI S_ 1 1#1
  let main_v3 : IVec S_ 1 := (fun x v => Host.reduce IntOp.andi x v reducesTo_S64x4096x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  main_v8
-- ==== Kernel.lean ====
abbrev S64x4096x512 : Shape := ⟨3, ![64, 4096, 512]⟩
abbrev S64x256x512 : Shape := ⟨3, ![64, 256, 512]⟩
abbrev S64x1 : Shape := ⟨2, ![64, 1]⟩
abbrev S8x512x512 : Shape := ⟨3, ![8, 512, 512]⟩
abbrev S8x256x512 : Shape := ⟨3, ![8, 256, 512]⟩
abbrev S8x1 : Shape := ⟨2, ![8, 1]⟩
abbrev S8x256 : Shape := ⟨2, ![8, 256]⟩
abbrev S8x512x256 : Shape := ⟨3, ![8, 512, 256]⟩
abbrev S8x512 : Shape := ⟨2, ![8, 512]⟩
abbrev S8 : Shape := ⟨1, ![8]⟩
abbrev S64 : Shape := ⟨1, ![64]⟩

abbrev nBuf : Space → Nat
  | .hbm => 4
  | .vmem => 9
  | .smem => 0
  | _ => 0

abbrev bufTy : (tb : Table) → Fin (tcTables nBuf tb) → BufTy
  | .hbm, ⟨0, _⟩ => ⟨S64x4096x512, .f32⟩
  | .hbm, ⟨1, _⟩ => ⟨S64x256x512, .f32⟩
  | .hbm, ⟨2, _⟩ => ⟨S64x1, .f32⟩
  | .hbm, ⟨3, _⟩ => ⟨S64, .f32⟩
  | .local _ .vmem, ⟨0, _⟩ => ⟨S8x512x512, .f32⟩
  | .local _ .vmem, ⟨1, _⟩ => ⟨S8x512x512, .f32⟩
  | .local _ .vmem, ⟨2, _⟩ => ⟨S8x256x512, .f32⟩
  | .local _ .vmem, ⟨3, _⟩ => ⟨S8x256x512, .f32⟩
  | .local _ .vmem, ⟨4, _⟩ => ⟨S8x1, .f32⟩
  | .local _ .vmem, ⟨5, _⟩ => ⟨S8x1, .f32⟩
  | .local _ .vmem, ⟨6, _⟩ => ⟨S8x256, .f32⟩
  | .local _ .vmem, ⟨7, _⟩ => ⟨S8x1, .f32⟩
  | .local _ .vmem, ⟨8, _⟩ => ⟨S8x256x512, .bf16⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256x512_S8x256x512_0_0_0 : ∀ a, (![0, 0, 0] : Fin 3 → Nat) a + S8x256x512.size a ≤ S8x256x512.size a
  h_S8x256x512 : 0 < S8x256x512.numel
  bitsLt_bf16_f32 : FTy.bits .bf16 < FTy.bits .f32
  shapeCasts_S8x256x512_S8x256x512 : S8x256x512.ShapeCasts S8x256x512
  packedbf16_S8x256x512_S8x256x512_0_0_0 : (Rect.unit (s := S8x256x512) ![0, 0, 0] S8x256x512.size inb_S8x256x512_S8x256x512_0_0_0).PackedRows (EltTy.packing .bf16)
  inb_S8x512x512_S8x512x512_0_0_0 : ∀ a, (![0, 0, 0] : Fin 3 → Nat) a + S8x512x512.size a ≤ S8x512x512.size a
  h_S8x512x512 : 0 < S8x512x512.numel
  reduces_S8x512x256_S8x512 : S8x512x256.Reduces [2] S8x512
  reduces_S8x512_S8 : S8x512.Reduces [1] S8
  shapeCasts_S8_S8x1 : S8.ShapeCasts S8x1
  reduces_S8x512x256_S8x256 : S8x512x256.Reduces [1] S8x256
  reduces_S8x256_S8 : S8x256.Reduces [1] S8
  shapeCasts_S64x1_S64 : S64x1.ShapeCasts S64
  dot_S8x512x512_S8x256x512_S8x512x256_2_2_1_1_0_0_wf : DotDims.WF S8x512x512 S8x256x512 S8x512x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x4096x512.size a
  hwx0_0 : ∀ i : grid0.Coords, EltTy.bits .f32 = 32 ∨ (Rect.block (s := S64x4096x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S64x256x512.size a
  hwx0_1 : ∀ i : grid0.Coords, EltTy.bits .f32 = 32 ∨ (Rect.block (s := S64x256x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

def dot_S8x512x512_S8x256x512_S8x512x256_2_2_1_1_0_0 : DotDims S8x512x512 S8x256x512 S8x512x256 where
  lhsContracting := [2]
  rhsContracting := [2]
  lhsNonContracting := [1]
  rhsNonContracting := [1]
  lhsBatch := [0]
  rhsBatch := [0]
  wf := dot_S8x512x512_S8x256x512_S8x512x256_2_2_1_1_0_0_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x4096x512 : Shape := ⟨3, ![64, 4096, 512]⟩
abbrev S64x256x512 : Shape := ⟨3, ![64, 256, 512]⟩
abbrev S64x4096x256 : Shape := ⟨3, ![64, 4096, 256]⟩
abbrev S_ : Shape := ⟨0, ![]⟩
abbrev S64x4096 : Shape := ⟨2, ![64, 4096]⟩
abbrev S64 : Shape := ⟨1, ![64]⟩
abbrev S64x256 : Shape := ⟨2, ![64, 256]⟩

abbrev nBuf : Space → Nat
  | .hbm => 21
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S64x256x512, .f32⟩
  | .hbm, ⟨2, _⟩ => ⟨S64x4096x256, .f32⟩
  | .hbm, ⟨3, _⟩ => ⟨S_, .f32⟩
  | .hbm, ⟨4, _⟩ => ⟨S64x4096, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S64x4096x256_S64x4096_d2 : S64x4096x256.ReducesTo [2] S64x4096
  h_S_ : 0 < S_.numel
  reducesTo_S64x4096_S64_d1 : S64x4096.ReducesTo [1] S64
  bcast_S_S64 : S_.BroadcastsInDim S64 (![] : Fin 0 → Fin S64.rank)
  reducesTo_S64x4096x256_S64x256_d1 : S64x4096x256.ReducesTo [1] S64x256
  reducesTo_S64x256_S64_d1 : S64x256.ReducesTo [1] S64
  dot_S64x4096x512_S64x256x512_S64x4096x256_2_2_1_1_0_0_wf : DotDims.WF S64x4096x512 S64x256x512 S64x4096x256 [2] [2] [1] [1] [0] [0]

variable [Facts₀]

def dot_S64x4096x512_S64x256x512_S64x4096x256_2_2_1_1_0_0 : DotDims S64x4096x512 S64x256x512 S64x4096x256 where
  lhsContracting := [2]
  rhsContracting := [2]
  lhsNonContracting := [1]
  rhsNonContracting := [1]
  lhsBatch := [0]
  rhsBatch := [0]
  wf := dot_S64x4096x512_S64x256x512_S64x4096x256_2_2_1_1_0_0_wf

class Facts : Prop extends Facts₀ where

variable [Facts]
-- ==== Proof.Pieces.lean ====
/-
  What one run of the kernel body leaves behind, case by case, as pure terms of what it found.

  The body runs in one of three ways, by the position `k` of the patch tile within a batch group:
  at the first tile (`k = 0`) it resets the two accumulators and caches the words block, then accumulates;
  at a middle tile it only accumulates; at the last tile (`k = 7`) it accumulates and then writes the output block.
  Three buffers are carried from tile to tile: the running per-word maximum, the running sum, and the cached words.
  Each lemma below says what a buffer holds after the body, as the body's own payload term applied to what the buffers
  held before: the stores' rectangles are the whole buffers, so the last store's value is the buffer's contents, and a
  load that follows a store of the same whole buffer reads that store's value.
-/
import proofs.«169027_j57724360458465_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.PatchWord.Pieces

open Cert.KernelIdeal Cert.KernelIdeal.Gen

variable {F : FTy → Type} [FloatOps F]

/-- The zero offsets of a rank-2 whole-buffer rectangle. -/
theorem hz2 : (![0, 0] : Fin 2 → Nat) = fun _ => 0 := funext fun a => by fin_cases a <;> rfl
/-- The zero offsets of a rank-3 whole-buffer rectangle. -/
theorem hz3 : (![0, 0, 0] : Fin 3 → Nat) = fun _ => 0 := funext fun a => by fin_cases a <;> rfl

variable (c : Dev nD) (i : grid0.Coords)
  (arg2 : Memref sig .tc .vmem S8x512x512 .f32) (harg2 : arg2.IsWhole)
  (arg3 : Memref sig .tc .vmem S8x256x512 .f32) (harg3 : arg3.IsWhole)
  (arg4 : Memref sig .tc .vmem S8x1 .f32) (harg4 : arg4.IsWhole)
  (arg5 : Memref sig .tc .vmem S8x256 .f32) (harg5 : arg5.IsWhole)
  (arg6 : Memref sig .tc .vmem S8x1 .f32) (harg6 : arg6.IsWhole)
  (arg7 : Memref sig .tc .vmem S8x256x512 .bf16) (harg7 : arg7.IsWhole)
  (x0 : Vec F S8x512x512 .f32) (x1 : Vec F S8x256x512 .f32)
  (xs0 : Vec F S8x256 .f32) (xs1 : Vec F S8x1 .f32) (xs2 : Vec F S8x256x512 .bf16)

/-! ## The first tile: reset, cache, accumulate -/

/-- After the first tile the running maximum is the tile's column maxima joined to the reset value. -/
theorem first_max (hc0 : cond0_0 i) (hc1 : ¬cond0_1 i) :
    sout0_A_0 c i arg2 harg2 arg3 harg3 arg4 harg4 arg5 harg5 arg6 harg6 arg7 harg7 hc0 hc1 x0 x1
      = k0_pay6 x0 (k0_pay3 x1) (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S8x256) hz2, View.readCov_unit_zero (S := S8x256x512) _ hz3, View.readCov_unit_zero (S := S8x256) _ hz2]
  simp only [View.readAt_eq_ld, harg2.read_unread, harg3.read_unread, View.ld_unit_zero (S := S8x512x512) hz3, View.ld_unit_zero (S := S8x256x512) hz3]

/-- After the first tile the running sum is the tile's sum added to the reset value. -/
theorem first_sum (hc0 : cond0_0 i) (hc1 : ¬cond0_1 i) :
    sout0_A_1 c i arg2 harg2 arg3 harg3 arg4 harg4 arg5 harg5 arg6 harg6 arg7 harg7 hc0 hc1 x0 x1
      = k0_pay5 x0 (k0_pay3 x1) (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x1) hz2, View.readCov_unit_zero (S := S8x256x512) _ hz3, View.readCov_unit_zero (S := S8x1) _ hz2]
  simp only [View.readAt_eq_ld, harg2.read_unread, harg3.read_unread, View.ld_unit_zero (S := S8x512x512) hz3, View.ld_unit_zero (S := S8x256x512) hz3]

/-- After the first tile the cache holds the words block. -/
theorem first_words (hc0 : cond0_0 i) (hc1 : ¬cond0_1 i) :
    sout0_A_2 c i arg2 harg2 arg3 harg3 arg4 harg4 arg5 harg5 arg6 harg6 arg7 harg7 hc0 hc1 x0 x1
      = k0_pay3 x1 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_unit_zero hz3]
  simp only [View.readAt_eq_ld, harg3.read_unread, View.ld_unit_zero (S := S8x256x512) hz3]

/-! ## A middle tile: accumulate -/

/-- After a middle tile the running maximum is the tile's column maxima joined to the previous one. -/
theorem mid_max (hc0 : ¬cond0_0 i) (hc1 : ¬cond0_1 i) :
    sout0_B_0 c i arg2 harg2 arg3 harg3 arg4 harg4 arg5 harg5 arg6 harg6 arg7 harg7 hc0 hc1 x0 x1 xs0 xs1 xs2
      = k0_pay6 x0 xs2 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg5.read_unread, harg7.read_unread, View.ld_unit_zero (S := S8x512x512) hz3, View.ld_unit_zero (S := S8x256x512) hz3, View.ld_unit_zero (S := S8x256) hz2]

/-- After a middle tile the running sum is the tile's sum added to the previous one. -/
theorem mid_sum (hc0 : ¬cond0_0 i) (hc1 : ¬cond0_1 i) :
    sout0_B_1 c i arg2 harg2 arg3 harg3 arg4 harg4 arg5 harg5 arg6 harg6 arg7 harg7 hc0 hc1 x0 x1 xs0 xs1 xs2
      = k0_pay5 x0 xs2 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg6.read_unread, harg7.read_unread, View.ld_unit_zero (S := S8x512x512) hz3, View.ld_unit_zero (S := S8x256x512) hz3, View.ld_unit_zero (S := S8x1) hz2]

/-! ## The last tile: accumulate, then write the scores -/

/-- After the last tile the running maximum is the tile's column maxima joined to the previous one. -/
theorem last_max (hc0 : ¬cond0_0 i) (hc1 : cond0_1 i) :
    sout0_C_0 c i arg2 harg2 arg3 harg3 arg4 harg4 arg5 harg5 arg6 harg6 arg7 harg7 hc0 hc1 x0 x1 xs0 xs1 xs2
      = k0_pay6 x0 xs2 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg5.read_unread, harg7.read_unread, View.ld_unit_zero (S := S8x512x512) hz3, View.ld_unit_zero (S := S8x256x512) hz3, View.ld_unit_zero (S := S8x256) hz2]

/-- After the last tile the running sum is the tile's sum added to the previous one. -/
theorem last_sum (hc0 : ¬cond0_0 i) (hc1 : cond0_1 i) :
    sout0_C_1 c i arg2 harg2 arg3 harg3 arg4 harg4 arg5 harg5 arg6 harg6 arg7 harg7 hc0 hc1 x0 x1 xs0 xs1 xs2
      = k0_pay5 x0 xs2 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg6.read_unread, harg7.read_unread, View.ld_unit_zero (S := S8x512x512) hz3, View.ld_unit_zero (S := S8x256x512) hz3, View.ld_unit_zero (S := S8x1) hz2]

/-- At the last tile the output block is the final combination of the two accumulators as this tile leaves them. -/
theorem last_out (hc0 : ¬cond0_0 i) (hc1 : cond0_1 i) :
    out0_C_2 c i arg2 harg2 arg3 harg3 arg4 harg4 arg5 harg5 arg6 harg6 arg7 harg7 hc0 hc1 x0 x1 xs0 xs1 xs2
      = k0_pay7 (k0_pay5 x0 xs2 xs1) (k0_pay6 x0 xs2 xs0) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2, View.readCov_unit_zero (S := S8x1) _ hz2, View.readCov_unit_zero (S := S8x256) _ hz2]
  simp only [View.readAt_eq_ld, harg2.read_unread, harg5.read_unread, harg6.read_unread, harg7.read_unread, View.ld_unit_zero (S := S8x512x512) hz3, View.ld_unit_zero (S := S8x256x512) hz3, View.ld_unit_zero (S := S8x256) hz2, View.ld_unit_zero (S := S8x1) hz2]

end Cert.PatchWord.Pieces

end
-- ==== Proof.Score.lean ====
/-
  The bidirectional patch–word similarity score, as a function of the two argument arrays.

  For a batch element `b`, patches `X[b, p, ·]` (4096 of them) and words `T[b, w, ·]` (256 of them), each a vector of
  512 entries, the similarity of patch `p` and word `w` is the inner product `sim b p w = ∑ d, X[b,p,d] · T[b,w,d]`.
  The score of `b` is half the sum of two means: the mean over patches of each patch's best word,
  `(∑ p, max_w sim b p w) / 4096`, and the mean over words of each word's best patch, `(∑ w, max_p sim b p w) / 256`.
  A maximum is taken from `⊥` (the extended reals' `-∞`), a sum from `0`.

  `score` writes this in one piece. `scoreTiled` writes the same number the way a computation that walks the 4096
  patches in 8 tiles of 512 accumulates it: after tile `k` a running sum of the per-tile sums of patch maxima
  (`accSum`) and, per word, a running maximum of the per-tile maxima (`accMax`); at the last tile the running sum is
  multiplied by `2⁻¹²` where `score` divides by `4096`.
-/
import Idealize.ShloMosaic.PureOps.Ideal
import Idealize.ShloMosaic.PureOps.Ideal.Laws
import Idealize.ShloMosaic.Lib.ValueIdx

noncomputable section

namespace Cert.PatchWord

open Idealize.ShloMosaic Idealize.ShloMosaic.ValueIdx

/-- The patches array, `[64, 4096, 512]`, as extended reals. -/
abbrev Patches : Type := (⟨3, ![64, 4096, 512]⟩ : Shape).Idx → EReal
/-- The words array, `[64, 256, 512]`, as extended reals. -/
abbrev Words : Type := (⟨3, ![64, 256, 512]⟩ : Shape).Idx → EReal

/-! ## The constants, as the extended reals their patterns denote -/

/-- `0.5`. -/
abbrev cHalf : EReal := Ideal.ofBits .f32 0x3F000000#32
/-- `256.0`. -/
abbrev c256 : EReal := Ideal.ofBits .f32 0x43800000#32
/-- `4096.0`. -/
abbrev c4096 : EReal := Ideal.ofBits .f32 0x45800000#32
/-- `2⁻¹²`, the reciprocal of 4096. -/
abbrev cInv4096 : EReal := Ideal.ofBits .f32 0x39800000#32

/-- The pattern of `-∞` denotes the bottom of the extended reals. -/
theorem negInf_eq : Ideal.ofBits .f32 0xFF800000#32 = (⊥ : EReal) := by
  simp [Ideal.ofBits, Ideal.ieee]

/-- `4096.0` denotes the real 4096. -/
theorem c4096_eq : c4096 = ((4096 : ℝ) : EReal) := by
  simp [Ideal.ofBits, Ideal.ieee, -EReal.coe_mul]; norm_num

/-- `2⁻¹²` denotes the real `1 / 4096`. -/
theorem cInv4096_eq : cInv4096 = ((1 / 4096 : ℝ) : EReal) := by
  simp [Ideal.ofBits, Ideal.ieee, -EReal.coe_mul]; norm_num

/-! ## The score in one piece -/

/-- The similarity of patch `p` and word `w` of batch element `b`: their inner product over the 512 features. -/
def sim (X : Patches) (T : Words) (b : Fin 64) (p : Fin 4096) (w : Fin 256) : EReal :=
  ∑ d : Fin 512, X (ix3 b p d) * T (ix3 b w d)

/-- A patch's best word: the maximum over the 256 words, from `⊥`. -/
def rowMax (X : Patches) (T : Words) (b : Fin 64) (p : Fin 4096) : EReal :=
  (Finset.univ : Finset (Fin 256)).fold max ⊥ (fun w => sim X T b p w)

/-- A word's best patch: the maximum over the 4096 patches, from `⊥`. -/
def colMax (X : Patches) (T : Words) (b : Fin 64) (w : Fin 256) : EReal :=
  (Finset.univ : Finset (Fin 4096)).fold max ⊥ (fun p => sim X T b p w)

/-- The score of batch element `b`: half of (mean over patches of the best word + mean over words of the best patch). -/
def score (X : Patches) (T : Words) (b : Fin 64) : EReal :=
  cHalf * (Ideal.div (0 + ∑ p : Fin 4096, rowMax X T b p) c4096 + Ideal.div (0 + ∑ w : Fin 256, colMax X T b w) c256)

/-! ## The score accumulated tile by tile -/

/-- Patch `p` of tile `k` (tiles are counted modulo 8, so the definition is total). -/
def tileP (k : ℕ) (p : Fin 512) : Fin 4096 := ⟨512 * (k % 8) + p.val, by omega⟩

/-- Tile `k`'s sum, over its 512 patches, of each patch's best word. -/
def partRow (X : Patches) (T : Words) (b : Fin 64) (k : ℕ) : EReal :=
  ∑ p : Fin 512, (Finset.univ : Finset (Fin 256)).fold max ⊥ (fun w => sim X T b (tileP k p) w)

/-- Within tile `k`, word `w`'s best patch. -/
def partCol (X : Patches) (T : Words) (b : Fin 64) (w : Fin 256) (k : ℕ) : EReal :=
  (Finset.univ : Finset (Fin 512)).fold max ⊥ (fun p => sim X T b (tileP k p) w)

/-- The running sum after tile `k`: from `0`, tile after tile. -/
def accSum (X : Patches) (T : Words) (b : Fin 64) : ℕ → EReal
  | 0 => 0 + partRow X T b 0
  | k + 1 => accSum X T b k + partRow X T b (k + 1)

/-- Word `w`'s running maximum after tile `k`: from `⊥`, tile after tile. -/
def accMax (X : Patches) (T : Words) (b : Fin 64) (w : Fin 256) : ℕ → EReal
  | 0 => max ⊥ (partCol X T b w 0)
  | k + 1 => max (accMax X T b w k) (partCol X T b w (k + 1))

/-- The score as the tiled computation ends with it, after the eighth tile. -/
def scoreTiled (X : Patches) (T : Words) (b : Fin 64) : EReal :=
  cHalf * (accSum X T b 7 * cInv4096 + Ideal.div (∑ w : Fin 256, accMax X T b w 7) c256)

end Cert.PatchWord

end
-- ==== Proof.Blocks.lean ====
/-
  Which elements of the argument arrays a grid point's blocks hold.

  The grid is 8 batch groups by 8 patch tiles, walked tile-fastest: point `t` is group `t / 8`, tile `t % 8`. Its patches
  block is rows `8·(t/8) … 8·(t/8)+7` of the batch, patches `512·(t%8) … 512·(t%8)+511`, all 512 features; its words block
  is the same batch rows, all 256 words, all features; its output block is the same batch rows of the `[64, 1]` result.
-/
import proofs.«169027_j57724360458465_2_alg».proof.Proof.Gen.KernelIdeal.Frame
import proofs.«169027_j57724360458465_2_alg».proof.Proof.Score
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.PatchWord.Blocks

open Cert.KernelIdeal Cert.KernelIdeal.Gen Cert.PatchWord

/-- Batch element `b` of the batch group that point `n` works on (groups are counted modulo 8, so this is total). -/
def rowB (n : ℕ) (b : Fin 8) : Fin 64 := ⟨8 * (n / 8 % 8) + b.val, by omega⟩

/-- The patches window's block index at point `t`: (group, tile, 0). -/
theorem idx_patches : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The words window's block index at point `t`: (group, 0, 0). -/
theorem idx_words : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The output window's block index at point `t`: (group, 0). -/
theorem idx_out : ∀ t : Fin cfg0.N, win0_2.index t 0 = t.val / 8 ∧ win0_2.index t 1 = 0 :=
  (by decide +kernel : ∀ t : Fin grid0.N, win0_2.index t 0 = t.val / 8 ∧ win0_2.index t 1 = 0)

variable (m : (ℓ : Loc nD τ sig) → Buf (Elt Ideal) ℓ)

/-- The patches array as the region finds it. -/
abbrev patches (c : Dev nD) : Patches := V m c main_arg0
/-- The words array as the region finds it. -/
abbrev words (c : Dev nD) : Words := V m c main_arg1

/-- Entry `(b, p, d)` of point `t`'s patches block is patch `p` of tile `t` of batch element `b` of `t`'s group. -/
theorem patch_block (c : Dev nD) (t : Fin cfg0.N) (b : Fin 8) (p : Fin 512) (d : Fin 512) :
    (iblk m c 0 t : Vec Ideal S8x512x512 .f32) (ix3 b p d) = patches m c (ix3 (rowB t.val b) (tileP t.val p) d) := by
  have hN : t.val < 64 := lt_of_lt_of_eq t.isLt (show cfg0.N = 64 from N_0)
  unfold iblk
  rw [View.read_apply]
  show V m c main_arg0 _ = V m c main_arg0 _
  congr 1
  funext a
  apply Fin.ext
  match a with
  | ⟨0, _⟩ => show win0_0.index t 0 * 8 + 1 * b.val = 8 * (t.val / 8 % 8) + b.val; rw [(idx_patches t).1]; omega
  | ⟨1, _⟩ => show win0_0.index t 1 * 512 + 1 * p.val = 512 * (t.val % 8) + p.val; rw [(idx_patches t).2.1]; omega
  | ⟨2, _⟩ => show win0_0.index t 2 * 512 + 1 * d.val = d.val; rw [(idx_patches t).2.2]; omega

/-- Entry `(b, w, d)` of point `t`'s words block is word `w` of batch element `b` of `t`'s group. -/
theorem word_block (c : Dev nD) (t : Fin cfg0.N) (b : Fin 8) (w : Fin 256) (d : Fin 512) :
    (iblk m c 1 t : Vec Ideal S8x256x512 .f32) (ix3 b w d) = words m c (ix3 (rowB t.val b) w d) := by
  have hN : t.val < 64 := lt_of_lt_of_eq t.isLt (show cfg0.N = 64 from N_0)
  unfold iblk
  rw [View.read_apply]
  show V m c main_arg1 _ = V m c main_arg1 _
  congr 1
  funext a
  apply Fin.ext
  match a with
  | ⟨0, _⟩ => show win0_1.index t 0 * 8 + 1 * b.val = 8 * (t.val / 8 % 8) + b.val; rw [(idx_words t).1]; omega
  | ⟨1, _⟩ => show win0_1.index t 1 * 256 + 1 * w.val = w.val; rw [(idx_words t).2.1]; omega
  | ⟨2, _⟩ => show win0_1.index t 2 * 512 + 1 * d.val = d.val; rw [(idx_words t).2.2]; omega

end Cert.PatchWord.Blocks

end
-- ==== Proof.Payloads.lean ====
/-
  The kernel body's payloads read at one index, at the ideal values: each pure vector term a store of the
  body writes is, at an index given by its coordinates, a plain sum, a plain maximum, or an arithmetic
  expression of its operands' elements over the extended reals.
-/
import proofs.«169027_j57724360458465_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PatchWord.Body

open Idealize.ShloMosaic Idealize.ShloMosaic.ValueIdx Cert.KernelIdeal Cert.KernelIdeal.Gen

/-! ## The matrix product -/

/-- The body's one contraction: batch axis 0 of both operands, rows of the left against rows of the right
    over their common last axis. -/
private abbrev D := dot_S8x512x512_S8x256x512_S8x512x256_2_2_1_1_0_0

private theorem lhs0 (i : S8x512x256.Idx) (q : D.contr.Idx) : (D.lhsIdx i q 0).val = (i 0).val := by
  unfold DotDims.lhsIdx
  rw [dif_pos (show (0 : Fin S8x512x512.rank) ∈ D.lhsBatch by decide)]
  rfl
private theorem lhs1 (i : S8x512x256.Idx) (q : D.contr.Idx) : (D.lhsIdx i q 1).val = (i 1).val := by
  unfold DotDims.lhsIdx
  rw [dif_neg (show ¬(1 : Fin S8x512x512.rank) ∈ D.lhsBatch by decide),
    dif_pos (show (1 : Fin S8x512x512.rank) ∈ D.lhsNonContracting by decide)]
  rfl
private theorem lhs2 (i : S8x512x256.Idx) (q : D.contr.Idx) : (D.lhsIdx i q 2).val = (q ⟨0, by decide⟩).val :=
  D.lhsIdx_val_of_single rfl i q
private theorem rhs0 (i : S8x512x256.Idx) (q : D.contr.Idx) : (D.rhsIdx i q 0).val = (i 0).val := by
  unfold DotDims.rhsIdx
  rw [dif_pos (show (0 : Fin S8x256x512.rank) ∈ D.rhsBatch by decide)]
  rfl
private theorem rhs1 (i : S8x512x256.Idx) (q : D.contr.Idx) : (D.rhsIdx i q 1).val = (i 2).val := by
  unfold DotDims.rhsIdx
  rw [dif_neg (show ¬(1 : Fin S8x256x512.rank) ∈ D.rhsBatch by decide),
    dif_pos (show (1 : Fin S8x256x512.rank) ∈ D.rhsNonContracting by decide)]
  rfl
private theorem rhs2 (i : S8x512x256.Idx) (q : D.contr.Idx) : (D.rhsIdx i q 2).val = (q ⟨0, by decide⟩).val :=
  D.rhsIdx_val_of_single rfl i q

/-- The product at (b, p, w) is the sum over the common axis of left (b, p, d) times right (b, w, d). -/
theorem pay4_apply (x0 : Vec Ideal S8x512x512 .f32) (x2 : Vec Ideal S8x256x512 .bf16) (b : Fin 8) (p : Fin 512) (w : Fin 256) :
    k0_pay4 (F := Ideal) x0 x2 (ix3 b p w) = ∑ d : Fin 512, x0 (ix3 b p d) * x2 (ix3 b w d) := by
  unfold k0_pay4
  refine (Ideal.matmul_constant_zero_apply (φ₁ := .bf16) (φ₂ := .bf16) D none
    (truncf .bf16 (x0 : FVec Ideal S8x512x512 .f32) bitsLt_bf16_f32) (x2 : FVec Ideal S8x256x512 .bf16) (ix3 b p w)).trans ?_
  rw [← Equiv.sum_comp (contrEquiv1 D 512 rfl rfl).symm]
  refine Finset.sum_congr rfl fun k _ => ?_
  have hk := contrEquiv1_symm_val D 512 rfl rfl k
  have el : D.lhsIdx (ix3 b p w) ((contrEquiv1 D 512 rfl rfl).symm k) = ix3 b p k := funext fun a => Fin.ext (by
    match a with
    | ⟨0, _⟩ => exact lhs0 _ _
    | ⟨1, _⟩ => exact lhs1 _ _
    | ⟨2, _⟩ => exact (lhs2 _ _).trans hk)
  have er : D.rhsIdx (ix3 b p w) ((contrEquiv1 D 512 rfl rfl).symm k) = ix3 b w k := funext fun a => Fin.ext (by
    match a with
    | ⟨0, _⟩ => exact rhs0 _ _
    | ⟨1, _⟩ => exact rhs1 _ _
    | ⟨2, _⟩ => exact (rhs2 _ _).trans hk)
  rw [el, er]
  rfl

/-! ## The reductions' inserted indices, the −∞ pattern, and the column cast -/

/-- The pattern a maximum starts from denotes −∞. -/
private theorem ofBits_negInf : Ideal.ofBits .f32 0xFF800000#32 = (⊥ : EReal) := by
  simp [Ideal.ofBits, Ideal.ieee]

/-- (b, p) with the last coordinate w put back is (b, p, w). -/
private theorem lift_last (h : S8x512x256.Reduces [2] S8x512) (b : Fin 8) (p : Fin 512) (w : Fin 256) :
    h.lift (ix2 b p) w = ix3 b p w := by
  funext c; apply Fin.ext
  match c with
  | ⟨0, _⟩ => rfl
  | ⟨1, _⟩ => rfl
  | ⟨2, _⟩ => rfl

/-- (b, w) with the middle coordinate p put back is (b, p, w). -/
private theorem lift_mid (h : S8x512x256.Reduces [1] S8x256) (b : Fin 8) (w : Fin 256) (p : Fin 512) :
    h.lift (ix2 b w) p = ix3 b p w := by
  funext c; apply Fin.ext
  match c with
  | ⟨0, _⟩ => rfl
  | ⟨1, _⟩ => rfl
  | ⟨2, _⟩ => rfl

/-- b with a second coordinate k put back is (b, k). -/
private theorem lift_row {n : Nat} (h : (⟨2, ![8, n]⟩ : Shape).Reduces [1] S8) (b : Fin 8) (k : Fin n) :
    h.lift (ix1 b) k = ix2 b k := by
  funext c; apply Fin.ext
  match c with
  | ⟨0, _⟩ => rfl
  | ⟨1, _⟩ => rfl

/-- Two folds of max over the same range agree when their starts and their functions do. -/
private theorem fold_max_congr {n : Nat} (c c' : EReal) (f g : Fin n → EReal) (hc : c = c') (hfg : ∀ k, f k = g k) :
    (Finset.univ : Finset (Fin n)).fold max c f = (Finset.univ : Finset (Fin n)).fold max c' g := by
  obtain rfl : f = g := funext hfg
  subst hc
  rfl

/-- A vector of length n cast to a column [n, 1] reads, at (i, u), the vector at i: the two row-major
    positions are i and i · 1 + 0. -/
private theorem shapeCast_a_a1_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two maxima of the product -/

/-- The product's maximum over its last axis, at (b, p): the fold of max from −∞ over w of the product at (b, p, w). -/
private theorem rowMax_apply (x0 : Vec Ideal S8x512x512 .f32) (x2 : Vec Ideal S8x256x512 .bf16) (b : Fin 8) (p : Fin 512) :
    multiReduction .maximumf [2] S8x512 (k0_pay4 (F := Ideal) x0 x2) 0xFF800000#32 reduces_S8x512x256_S8x512 (.inl rfl) rfl (ix2 b p)
      = (Finset.univ : Finset (Fin 256)).fold max ⊥ (fun w => ∑ d : Fin 512, x0 (ix3 b p d) * x2 (ix3 b w d)) := by
  refine (Ideal.multiReduction_maximumf_single (k0_pay4 (F := Ideal) x0 x2) _ reduces_S8x512x256_S8x512 (.inl rfl) rfl (ix2 b p)).trans ?_
  exact fold_max_congr (n := 256) _ _ _ _ ofBits_negInf fun w =>
    (congrArg (k0_pay4 (F := Ideal) x0 x2) (lift_last reduces_S8x512x256_S8x512 b p w)).trans (pay4_apply x0 x2 b p w)

/-- The product's maximum over its middle axis, at (b, w): the fold of max from −∞ over p of the product at (b, p, w). -/
private theorem colMax_apply (x0 : Vec Ideal S8x512x512 .f32) (x2 : Vec Ideal S8x256x512 .bf16) (b : Fin 8) (w : Fin 256) :
    multiReduction .maximumf [1] S8x256 (k0_pay4 (F := Ideal) x0 x2) 0xFF800000#32 reduces_S8x512x256_S8x256 (.inl rfl) rfl (ix2 b w)
      = (Finset.univ : Finset (Fin 512)).fold max ⊥ (fun p => ∑ d : Fin 512, x0 (ix3 b p d) * x2 (ix3 b w d)) := by
  refine (Ideal.multiReduction_maximumf_single (k0_pay4 (F := Ideal) x0 x2) _ reduces_S8x512x256_S8x256 (.inl rfl) rfl (ix2 b w)).trans ?_
  exact fold_max_congr (n := 512) _ _ _ _ ofBits_negInf fun p =>
    (congrArg (k0_pay4 (F := Ideal) x0 x2) (lift_mid reduces_S8x512x256_S8x256 b w p)).trans (pay4_apply x0 x2 b p w)

/-- The running column maximum: the old value against the product's maximum over its middle axis. -/
theorem pay6_apply (x0 : Vec Ideal S8x512x512 .f32) (x2 : Vec Ideal S8x256x512 .bf16) (a : Vec Ideal S8x256 .f32) (b : Fin 8) (w : Fin 256) :
    k0_pay6 (F := Ideal) x0 x2 a (ix2 b w) = max (a (ix2 b w)) ((Finset.univ : Finset (Fin 512)).fold max ⊥ (fun p => ∑ d : Fin 512, x0 (ix3 b p d) * x2 (ix3 b w d))) := by
  unfold k0_pay6
  refine (congrFun (shapeCast_self _ shapeCasts_S8x256_S8x256) (ix2 b w)).trans ?_
  exact congrArg (max (a (ix2 b w))) (colMax_apply x0 x2 b w)

/-! ## The running sum of row maxima, and the final score -/

/-- The running sum: the old value plus the sum over p of the product's row maximum at (b, p). -/
theorem pay5_apply (x0 : Vec Ideal S8x512x512 .f32) (x2 : Vec Ideal S8x256x512 .bf16) (a : Vec Ideal S8x1 .f32) (b : Fin 8) (z : Fin 1) :
    k0_pay5 (F := Ideal) x0 x2 a (ix2 b z) = a (ix2 b z) + ∑ p : Fin 512, (Finset.univ : Finset (Fin 256)).fold max ⊥ (fun w => ∑ d : Fin 512, x0 (ix3 b p d) * x2 (ix3 b w d)) := by
  unfold k0_pay5
  refine (congrFun (shapeCast_self _ shapeCasts_S8x1_S8x1) (ix2 b z)).trans ?_
  refine congrArg (a (ix2 b z) + ·) ?_
  refine (shapeCast_a_a1_apply _ shapeCasts_S8_S8x1 b z).trans ?_
  refine (Ideal.multiReduction_add_single _ _ reduces_S8x512_S8 (.inl rfl) rfl (ix1 b)).trans ?_
  show ∑ p : Fin 512, _ = _
  refine Finset.sum_congr rfl fun p _ => ?_
  rw [lift_row reduces_S8x512_S8 b p]
  exact rowMax_apply x0 x2 b p

/-- The score: half of (the running sum scaled) plus (the mean over w of the column maxima). -/
theorem pay7_apply (s : Vec Ideal S8x1 .f32) (mw : Vec Ideal S8x256 .f32) (b : Fin 8) (z : Fin 1) :
    k0_pay7 (F := Ideal) s mw (ix2 b z) = Ideal.ofBits .f32 0x3F000000#32 * (s (ix2 b z) * Ideal.ofBits .f32 0x39800000#32 + Ideal.div (∑ w : Fin 256, mw (ix2 b w)) (Ideal.ofBits .f32 0x43800000#32)) := by
  unfold k0_pay7
  refine congrArg (Ideal.ofBits .f32 0x3F000000#32 * ·) ?_
  refine congrArg (s (ix2 b z) * Ideal.ofBits .f32 0x39800000#32 + ·) ?_
  refine congrArg (fun t => Ideal.div t (Ideal.ofBits .f32 0x43800000#32)) ?_
  refine (shapeCast_a_a1_apply _ shapeCasts_S8_S8x1 b z).trans ?_
  refine (Ideal.multiReduction_add_single (mw : FVec Ideal S8x256 .f32) _ reduces_S8x256_S8 (.inl rfl) rfl (ix1 b)).trans ?_
  show ∑ w : Fin 256, _ = _
  refine Finset.sum_congr rfl fun w _ => ?_
  rw [lift_row reduces_S8x256_S8 b w]

/-! ## The initial values and the cast operand -/

/-- The column maxima start at −∞. -/
theorem pay1_apply (j : S8x256.Idx) : k0_pay1 (F := Ideal) j = (⊥ : EReal) := by
  unfold k0_pay1
  refine (congrFun (shapeCast_self _ shapeCasts_S8x256_S8x256) j).trans ?_
  exact ofBits_negInf

/-- The running sum starts at 0. -/
theorem pay2_apply (j : S8x1.Idx) : k0_pay2 (F := Ideal) j = (0 : EReal) := by
  unfold k0_pay2
  refine (congrFun (shapeCast_self _ shapeCasts_S8x1_S8x1) j).trans ?_
  exact Ideal.ofBits_zero_f32

/-- The narrowed copy of the right operand is the operand. -/
theorem pay3_apply (x1 : Vec Ideal S8x256x512 .f32) (j : S8x256x512.Idx) : k0_pay3 (F := Ideal) x1 j = x1 j := by
  unfold k0_pay3
  exact congrFun (shapeCast_self _ shapeCasts_S8x256x512_S8x256x512) j

end Cert.PatchWord.Body

end
-- ==== Proof.Tiling.lean ====
/-
  The tiled accumulation of the patch–word score equals the score written in one piece.

  Three facts carry it.  A sum over the 4096 patches is the sum over the 8 tiles of the sums over each tile's 512 patches,
  because `(k, q) ↦ 512·k + q` is a bijection from `Fin 8 × Fin 512` onto `Fin 4096`; so the running sum after the eighth
  tile is `0` plus the whole sum.  A maximum over the 4096 patches is the maximum over the tiles of the per-tile maxima,
  shown as two inequalities: each tile's patch is a patch, and patch `p` lies in tile `p / 512` at offset `p % 512`.  And
  multiplying by `2⁻¹²` is dividing by `4096`, at the infinities too.
-/
import proofs.«169027_j57724360458465_2_alg».proof.Proof.Score
import Mathlib.Algebra.BigOperators.Fin
import Mathlib.Data.Finset.Fold

noncomputable section

namespace Cert.PatchWord

open Idealize.ShloMosaic Idealize.ShloMosaic.ValueIdx

/-! ## Sums: the eight tiles partition the patches -/

/-- A sum over the 4096 patches, regrouped as the sum over the 8 tiles of the sum over the tile's 512 patches. -/
theorem sum_tiles {M : Type} [AddCommMonoid M] (f : Fin 4096 → M) :
    ∑ p : Fin 4096, f p = ∑ k : Fin 8, ∑ q : Fin 512, f (tileP k.val q) := by
  have h := (finProdFinEquiv (m := 8) (n := 512)).sum_comp f
  rw [Fintype.sum_prod_type] at h
  rw [← h]
  refine Finset.sum_congr rfl fun k _ => Finset.sum_congr rfl fun q _ => ?_
  congr 1
  apply Fin.ext
  have hk : k.val % 8 = k.val := Nat.mod_eq_of_lt k.isLt
  simp only [finProdFinEquiv, Equiv.coe_fn_mk, tileP, hk]
  omega

/-- The running sum after tile `n` is `0` plus the sum of the tiles' sums so far. -/
theorem accSum_eq_range (X : Patches) (T : Words) (b : Fin 64) (n : ℕ) :
    accSum X T b n = 0 + ∑ k ∈ Finset.range (n + 1), partRow X T b k := by
  induction n with
  | zero => simp [accSum]
  | succ n ih => rw [accSum, ih, Finset.sum_range_succ _ (n + 1), add_assoc]

/-- After the eighth tile the running sum is `0` plus the sum over all patches of each patch's best word. -/
theorem accSum_seven (X : Patches) (T : Words) (b : Fin 64) :
    accSum X T b 7 = 0 + ∑ p : Fin 4096, rowMax X T b p := by
  rw [accSum_eq_range, sum_tiles, ← Fin.sum_univ_eq_sum_range (fun k => partRow X T b k) 8]
  rfl

/-! ## Maxima: the maximum over the patches is the maximum over the tiles of the per-tile maxima -/

/-- A tile's maximum is at most the maximum over all patches: each of its patches is a patch. -/
theorem partCol_le_colMax (X : Patches) (T : Words) (b : Fin 64) (w : Fin 256) (k : ℕ) :
    partCol X T b w k ≤ colMax X T b w := by
  unfold partCol colMax
  rw [Finset.fold_max_le]
  refine ⟨bot_le, fun q _ => ?_⟩
  rw [Finset.le_fold_max]
  exact Or.inr ⟨tileP k q, Finset.mem_univ _, le_rfl⟩

/-- Every running maximum is at most the maximum over all patches. -/
theorem accMax_le_colMax (X : Patches) (T : Words) (b : Fin 64) (w : Fin 256) (n : ℕ) :
    accMax X T b w n ≤ colMax X T b w := by
  induction n with
  | zero => rw [accMax]; exact max_le bot_le (partCol_le_colMax X T b w 0)
  | succ n ih => rw [accMax]; exact max_le ih (partCol_le_colMax X T b w (n + 1))

/-- A tile's maximum is at most every running maximum from that tile on. -/
theorem partCol_le_accMax (X : Patches) (T : Words) (b : Fin 64) (w : Fin 256) (k n : ℕ) (h : k ≤ n) :
    partCol X T b w k ≤ accMax X T b w n := by
  induction n with
  | zero =>
    obtain rfl : k = 0 := by omega
    rw [accMax]; exact le_max_right _ _
  | succ n ih =>
    rw [accMax]
    rcases Nat.lt_or_ge k (n + 1) with h' | h'
    · exact le_trans (ih (by omega)) (le_max_left _ _)
    · obtain rfl : k = n + 1 := by omega
      exact le_max_right _ _

/-- The maximum over all patches is at most the running maximum after the eighth tile: patch `p` is patch `p % 512` of
    tile `p / 512`. -/
theorem colMax_le_accMax (X : Patches) (T : Words) (b : Fin 64) (w : Fin 256) :
    colMax X T b w ≤ accMax X T b w 7 := by
  unfold colMax
  rw [Finset.fold_max_le]
  refine ⟨bot_le, fun p _ => ?_⟩
  have hq : p.val % 512 < 512 := Nat.mod_lt _ (by norm_num)
  have hk : p.val / 512 % 8 = p.val / 512 := Nat.mod_eq_of_lt (by omega)
  have hp : tileP (p.val / 512) ⟨p.val % 512, hq⟩ = p := by
    apply Fin.ext
    simp only [tileP, hk]
    omega
  refine le_trans ?_ (partCol_le_accMax X T b w (p.val / 512) 7 (by omega))
  unfold partCol
  rw [Finset.le_fold_max]
  exact Or.inr ⟨⟨p.val % 512, hq⟩, Finset.mem_univ _, by rw [hp]⟩

/-- After the eighth tile a word's running maximum is its best patch over all 4096. -/
theorem accMax_seven (X : Patches) (T : Words) (b : Fin 64) (w : Fin 256) :
    accMax X T b w 7 = colMax X T b w :=
  le_antisymm (accMax_le_colMax X T b w 7) (colMax_le_accMax X T b w)

/-! ## The factor: multiplying by `2⁻¹²` is dividing by `4096` -/

theorem mul_cInv4096 (x : EReal) : x * cInv4096 = Ideal.div x c4096 := by
  rw [cInv4096_eq, c4096_eq, Ideal.div_coe (by norm_num)]

/-! ## The two scores agree -/

/-- The score accumulated tile by tile is the score in one piece. -/
theorem scoreTiled_eq (X : Patches) (T : Words) (b : Fin 64) : scoreTiled X T b = score X T b := by
  unfold scoreTiled score
  rw [mul_cInv4096, accSum_seven, zero_add (∑ w : Fin 256, colMax X T b w)]
  simp only [accMax_seven]

end Cert.PatchWord

end
-- ==== Proof.Carried.lean ====
/-
  What the three carried buffers hold after every grid point, and what the output block holds at a group's last tile.

  Point `n` works on tile `n % 8` of batch group `n / 8`. After it, for each of the group's eight batch elements `b`:
  the running-maximum buffer holds, per word, the maximum over tiles `0 … n % 8` of the tile's best patch (`accMax`);
  the running-sum buffer holds the sum over those tiles of the tile's sum of best words (`accSum`); the cache holds the
  group's words. This is an induction on the point: a group's first tile starts both accumulators afresh from `⊥` and `0`
  and fills the cache from the words block; every later tile of the group extends the previous point's values by its own
  tile. At the group's last tile the output block is the tiled score, which is the score.
-/
import proofs.«169027_j57724360458465_2_alg».proof.Proof.Pieces
import proofs.«169027_j57724360458465_2_alg».proof.Proof.Blocks
import proofs.«169027_j57724360458465_2_alg».proof.Proof.Payloads
import proofs.«169027_j57724360458465_2_alg».proof.Proof.Tiling

set_option maxRecDepth 16384

noncomputable section

open Idealize.ShloMosaic Idealize.ShloMosaic.TcCoe Idealize.SL.Sem Idealize.ShloMosaic.ValueIdx

namespace Cert.PatchWord.Carried

open Cert.KernelIdeal Cert.KernelIdeal.Gen Cert.PatchWord Cert.PatchWord.Blocks Cert.PatchWord.Body Cert.PatchWord.Pieces

/-! ## Tiles are counted modulo 8 -/

theorem tileP_congr {a b : ℕ} (h : a % 8 = b % 8) : tileP a = tileP b := by
  funext p; apply Fin.ext; show 512 * (a % 8) + p.val = 512 * (b % 8) + p.val; rw [h]

theorem partCol_congr (X : Patches) (T : Words) (B : Fin 64) (w : Fin 256) {a b : ℕ} (h : a % 8 = b % 8) :
    partCol X T B w a = partCol X T B w b := by unfold partCol; rw [tileP_congr h]

theorem partRow_congr (X : Patches) (T : Words) (B : Fin 64) {a b : ℕ} (h : a % 8 = b % 8) :
    partRow X T B a = partRow X T B b := by unfold partRow; rw [tileP_congr h]

/-- A later tile of a group belongs to the same batch rows as the point before it. -/
theorem rowB_succ {n : ℕ} (h : (n + 1) % 8 ≠ 0) (b : Fin 8) : rowB (n + 1) b = rowB n b := by
  apply Fin.ext; show 8 * ((n + 1) / 8 % 8) + b.val = 8 * (n / 8 % 8) + b.val; omega

/-! ## One tile's contribution, from blocks that hold the right elements -/

section Tile

variable (X : Patches) (T : Words) (n : ℕ) (x0 : Vec Ideal S8x512x512 .f32) (x2 : Vec Ideal S8x256x512 .bf16)
  (h0 : ∀ (b : Fin 8) (p : Fin 512) (d : Fin 512), x0 (ix3 b p d) = X (ix3 (rowB n b) (tileP n p) d))
  (h2 : ∀ (b : Fin 8) (w : Fin 256) (d : Fin 512), x2 (ix3 b w d) = T (ix3 (rowB n b) w d))

include h0 h2

/-- Within the tile, word `w`'s best patch. -/
theorem tile_colmax (b : Fin 8) (w : Fin 256) :
    (Finset.univ : Finset (Fin 512)).fold max ⊥ (fun p => ∑ d : Fin 512, x0 (ix3 b p d) * x2 (ix3 b w d))
      = partCol X T (rowB n b) w n := by
  unfold partCol sim
  simp only [h0, h2]

/-- The tile's sum of each patch's best word. -/
theorem tile_rowsum (b : Fin 8) :
    (∑ p : Fin 512, (Finset.univ : Finset (Fin 256)).fold max ⊥ (fun w => ∑ d : Fin 512, x0 (ix3 b p d) * x2 (ix3 b w d)))
      = partRow X T (rowB n b) n := by
  unfold partRow sim
  simp only [h0, h2]

end Tile

/-! ## The invariant -/

variable (m : (ℓ : Loc nD τ sig) → Buf (Elt Ideal) ℓ) (c : Dev nD)

/-- What the carried buffers hold after point `n`. -/
structure Holds (n : ℕ) (s0 : Vec Ideal S8x256 .f32) (s1 : Vec Ideal S8x1 .f32) (s2 : Vec Ideal S8x256x512 .bf16) : Prop where
  maxes : ∀ (b : Fin 8) (w : Fin 256), s0 (ix2 b w) = accMax (patches m c) (words m c) (rowB n b) w (n % 8)
  sums : ∀ (b : Fin 8) (z : Fin 1), s1 (ix2 b z) = accSum (patches m c) (words m c) (rowB n b) (n % 8)
  cache : ∀ (b : Fin 8) (w : Fin 256) (d : Fin 512), s2 (ix3 b w d) = words m c (ix3 (rowB n b) w d)

/-- A group's first tile: both accumulators start afresh, the cache is filled from the words block. -/
theorem holds_first (n : ℕ) (hn : n % 8 = 0) (x0 : Vec Ideal S8x512x512 .f32) (x1 : Vec Ideal S8x256x512 .f32)
    (h0 : ∀ (b : Fin 8) (p : Fin 512) (d : Fin 512), x0 (ix3 b p d) = patches m c (ix3 (rowB n b) (tileP n p) d))
    (h1 : ∀ (b : Fin 8) (w : Fin 256) (d : Fin 512), x1 (ix3 b w d) = words m c (ix3 (rowB n b) w d)) :
    Holds m c n (k0_pay6 (F := Ideal) x0 (k0_pay3 x1) (k0_pay1 (F := Ideal))) (k0_pay5 (F := Ideal) x0 (k0_pay3 x1) (k0_pay2 (F := Ideal))) (k0_pay3 (F := Ideal) x1) := by
  have h2 : ∀ (b : Fin 8) (w : Fin 256) (d : Fin 512), (k0_pay3 (F := Ideal) x1) (ix3 b w d) = words m c (ix3 (rowB n b) w d) :=
    fun b w d => (pay3_apply x1 _).trans (h1 b w d)
  refine ⟨fun b w => ?_, fun b z => ?_, h2⟩
  · rw [pay6_apply, pay1_apply, tile_colmax (patches m c) (words m c) n x0 _ h0 h2, hn,
      partCol_congr (patches m c) (words m c) (rowB n b) w (show n % 8 = 0 % 8 from hn)]
    rfl
  · rw [pay5_apply, pay2_apply, tile_rowsum (patches m c) (words m c) n x0 _ h0 h2, hn,
      partRow_congr (patches m c) (words m c) (rowB n b) (show n % 8 = 0 % 8 from hn)]
    rfl

/-- A later tile of the group: both accumulators are extended by the tile, the cache is kept. -/
theorem holds_next (n : ℕ) (hn : (n + 1) % 8 ≠ 0) (x0 : Vec Ideal S8x512x512 .f32)
    (xs0 : Vec Ideal S8x256 .f32) (xs1 : Vec Ideal S8x1 .f32) (xs2 : Vec Ideal S8x256x512 .bf16)
    (h0 : ∀ (b : Fin 8) (p : Fin 512) (d : Fin 512), x0 (ix3 b p d) = patches m c (ix3 (rowB (n + 1) b) (tileP (n + 1) p) d))
    (hprev : Holds m c n xs0 xs1 xs2) :
    Holds m c (n + 1) (k0_pay6 (F := Ideal) x0 xs2 xs0) (k0_pay5 (F := Ideal) x0 xs2 xs1) xs2 := by
  have hmod : (n + 1) % 8 = n % 8 + 1 := by omega
  have hcong : (n + 1) % 8 = (n % 8 + 1) % 8 := by omega
  have h2 : ∀ (b : Fin 8) (w : Fin 256) (d : Fin 512), xs2 (ix3 b w d) = words m c (ix3 (rowB (n + 1) b) w d) :=
    fun b w d => by rw [rowB_succ hn]; exact hprev.cache b w d
  refine ⟨fun b w => ?_, fun b z => ?_, h2⟩
  · rw [pay6_apply, hprev.maxes, tile_colmax (patches m c) (words m c) (n + 1) x0 xs2 h0 h2, hmod, rowB_succ hn,
      partCol_congr (patches m c) (words m c) (rowB n b) w hcong]
    rfl
  · rw [pay5_apply, hprev.sums, tile_rowsum (patches m c) (words m c) (n + 1) x0 xs2 h0 h2, hmod, rowB_succ hn,
      partRow_congr (patches m c) (words m c) (rowB n b) hcong]
    rfl

/-! ## The buffers' contents after a point, case by case: each is the body's term at what the point found -/

/-- At a group's first tile. -/
theorem at_first (t : Fin cfg0.N) (h0 : t.val % 8 = 0) (h1 : ¬t.val % 8 = 7) :
    (outsAt0 m c t.val t.isLt).2.1 = k0_pay6 (F := Ideal) (iblk m c 0 t) (k0_pay3 (iblk m c 1 t)) (k0_pay1 (F := Ideal))
    ∧ (outsAt0 m c t.val t.isLt).2.2.1 = k0_pay5 (F := Ideal) (iblk m c 0 t) (k0_pay3 (iblk m c 1 t)) (k0_pay2 (F := Ideal))
    ∧ (outsAt0 m c t.val t.isLt).2.2.2 = k0_pay3 (F := Ideal) (iblk m c 1 t) := by
  rw [outsAt0_A m c t h0 h1]
  dsimp only
  exact ⟨first_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    first_sum c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)),
    first_words c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h))⟩

/-- At a middle tile. -/
theorem at_mid (t : Fin cfg0.N) (h0 : ¬t.val % 8 = 0) (h1 : ¬t.val % 8 = 7) :
    (outsAt0 m c t.val t.isLt).2.1 = k0_pay6 (F := Ideal) (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.1
    ∧ (outsAt0 m c t.val t.isLt).2.2.1 = k0_pay5 (F := Ideal) (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0 h1]
  dsimp only
  exact ⟨mid_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    mid_sum c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)), rfl⟩

/-- At a group's last tile. -/
theorem at_last (t : Fin cfg0.N) (h0 : ¬t.val % 8 = 0) (h1 : t.val % 8 = 7) :
    (outsAt0 m c t.val t.isLt).2.1 = k0_pay6 (F := Ideal) (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.1
    ∧ (outsAt0 m c t.val t.isLt).2.2.1 = k0_pay5 (F := Ideal) (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2
    ∧ (outsAt0 m c t.val t.isLt).1 = k0_pay7 (F := Ideal) (k0_pay5 (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1) (k0_pay6 (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.1) := by
  rw [outsAt0_C m c t h0 h1]
  dsimp only
  exact ⟨last_max c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    last_sum c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1), rfl,
    last_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)⟩

/-! ## The induction over the grid -/

/-- After every point the carried buffers hold the running maxima, the running sum and the group's words. -/
theorem carried : ∀ (n : ℕ) (hn : n < cfg0.N),
    Holds m c n (outsAt0 m c n hn).2.1 (outsAt0 m c n hn).2.2.1 (outsAt0 m c n hn).2.2.2
  | 0, hn => by
    obtain ⟨e0, e1, e2⟩ := at_first m c ⟨0, hn⟩ rfl (by show ¬(0 % 8 = 7); decide)
    rw [e0, e1, e2]
    exact holds_first m c 0 rfl _ _ (patch_block m c ⟨0, hn⟩) (word_block m c ⟨0, hn⟩)
  | n + 1, hn => by
    have hN : n + 1 < 64 := lt_of_lt_of_eq hn (show cfg0.N = 64 from N_0)
    by_cases h0 : (n + 1) % 8 = 0
    · obtain ⟨e0, e1, e2⟩ := at_first m c ⟨n + 1, hn⟩ h0 (by dsimp only; omega)
      rw [e0, e1, e2]
      exact holds_first m c (n + 1) h0 _ _ (patch_block m c ⟨n + 1, hn⟩) (word_block m c ⟨n + 1, hn⟩)
    · by_cases h1 : (n + 1) % 8 = 7
      · obtain ⟨e0, e1, e2, -⟩ := at_last m c ⟨n + 1, hn⟩ h0 h1
        rw [e0, e1, e2]
        exact holds_next m c n h0 _ _ _ _ (patch_block m c ⟨n + 1, hn⟩) (carried n (Nat.lt_of_succ_lt hn))
      · obtain ⟨e0, e1, e2⟩ := at_mid m c ⟨n + 1, hn⟩ h0 h1
        rw [e0, e1, e2]
        exact holds_next m c n h0 _ _ _ _ (patch_block m c ⟨n + 1, hn⟩) (carried n (Nat.lt_of_succ_lt hn))

/-- At a group's last tile the output block holds the scores of the group's eight batch elements. -/
theorem out_last (t : Fin cfg0.N) (h7 : t.val % 8 = 7) (b : Fin 8) (z : Fin 1) :
    (outsAt0 m c t.val t.isLt).1 (ix2 b z) = score (patches m c) (words m c) (rowB t.val b) := by
  have hN : t.val < 64 := lt_of_lt_of_eq t.isLt (show cfg0.N = 64 from N_0)
  have h0 : ¬t.val % 8 = 0 := by omega
  obtain ⟨n, hn⟩ : ∃ n, t.val = n + 1 := ⟨t.val - 1, by omega⟩
  obtain ⟨e0, e1, -, e3⟩ := at_last m c t h0 h7
  have hH := carried m c t.val t.isLt
  rw [e0, e1] at hH
  rw [e3, pay7_apply, hH.sums b z, ← scoreTiled_eq]
  unfold scoreTiled
  rw [h7]
  congr 3
  exact Finset.sum_congr rfl fun w _ => by rw [hH.maxes b w, h7]

end Cert.PatchWord.Carried

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.Result.lean ====
/-
  The result: after the run the `[64, 1]` array the region writes holds every batch element's score, and the program's
  closing reshape reads it back as the `[64]` vector of scores.

  The output block of a batch group is written back once, after the group's last tile, and holds the group's eight
  scores; the eight groups' blocks tile the `[64, 1]` array (row `r` is in group `r / 8`), so the array ends holding
  `score r` at every row `r`. The reshape `[64, 1] → [64]` keeps row-major order: entry `r` of the vector is row `r`.
-/
import proofs.«169027_j57724360458465_2_alg».proof.Proof.Carried
import proofs.«169027_j57724360458465_2_alg».proof.Proof.LibColumnCast
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.PatchWord.Result

open Cert.KernelIdeal Cert.KernelIdeal.Gen Cert.PatchWord Cert.PatchWord.Blocks Cert.PatchWord.Carried

variable (m : (ℓ : Loc nD τ sig) → Buf (Elt Ideal) ℓ) (ρ : Dev nD → PrngReg)

/-- The `[64, 1]` array of scores: row `r` holds batch element `r`'s score. -/
def scores (c : Dev nD) : Buf (Elt Ideal) ((c : Thread nD τ).loc main_v0) :=
  fun j : S64x1.Idx => score (patches m c) (words m c) ⟨(j 0).val, (j 0).isLt⟩

/-- The `[64]` vector of scores. -/
def result (c : Dev nD) : Buf (Elt Ideal) ((c : Thread nD τ).loc main_v1) :=
  fun j : S64.Idx => score (patches m c) (words m c) ⟨(j 0).val, (j 0).isLt⟩

/-- What a flushing point writes back is its block of the array of scores: the point is a group's last tile, and row
    `b` of its block is row `8·group + b` of the array. -/
theorem flushed_eq (c : Dev nD) (t : Fin cfg0.N) (hf : (cfg0.win 2).flush t = true) :
    (dats m 0 c).flushed 2 t = ((cfg0.win 2).blk t).view.read (Elt Ideal) (scores m c) := by
  have hN : t.val < 64 := lt_of_lt_of_eq t.isLt (show cfg0.N = 64 from N_0)
  have h7 : t.val % 8 = 7 := (flush0_2 t).mp hf
  show (cfg0.win 2).cut (grid0.coords t) ((dats m 0 c).after 2 t) = _
  rw [after0_2]
  funext j
  obtain ⟨b, z, rfl⟩ : ∃ (b : Fin 8) (z : Fin 1), (j : S8x1.Idx) = ix2 b z := ⟨j 0, j 1, eq_ix2 (n0 := 8) (n1 := 1) j⟩
  show (outsAt0 m c t.val t.isLt).1 (ix2 b z) = scores m c (((cfg0.win 2).blk t).view.emb (ix2 b z))
  rw [out_last m c t h7 b z]
  unfold scores
  congr 1
  apply Fin.ext
  show 8 * (t.val / 8 % 8) + b.val = win0_2.index t 0 * 8 + 1 * b.val
  rw [(idx_out t).1]; omega

/-- An index of the array is in point `t`'s block iff each coordinate is in the block's range on its axis. -/
theorem mem_out_block (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v0).slice (win0_2.rect t)).set ↔ _
  rw [View.set_slice_whole, Rect.mem_set_unit]
  exact Iff.rfl

/-- Every row is in the block some group's last tile writes back: row `r` in that of group `r / 8`. -/
theorem covered (i : S64x1.Idx) : ∃ t : Fin cfg0.N, (cfg0.win 2).flush t = true ∧ i ∈ ((cfg0.win 2).blk t).view.set := by
  have hi0 : (i 0).val < 64 := (i 0).isLt
  have hi1 : (i 1).val < 1 := (i 1).isLt
  have hN : cfg0.N = 64 := N_0
  have hlt : 8 * ((i 0).val / 8) + 7 < cfg0.N := by omega
  refine ⟨⟨8 * ((i 0).val / 8) + 7, hlt⟩, (flush0_2 _).mpr (by show (8 * ((i 0).val / 8) + 7) % 8 = 7; omega), ?_⟩
  rw [mem_out_block]
  intro a
  match a with
  | ⟨0, _⟩ =>
    show win0_2.index ⟨8 * ((i 0).val / 8) + 7, hlt⟩ 0 * 8 ≤ (i 0).val ∧ (i 0).val < win0_2.index ⟨8 * ((i 0).val / 8) + 7, hlt⟩ 0 * 8 + 8
    rw [(idx_out ⟨8 * ((i 0).val / 8) + 7, hlt⟩).1]
    show (8 * ((i 0).val / 8) + 7) / 8 * 8 ≤ (i 0).val ∧ (i 0).val < (8 * ((i 0).val / 8) + 7) / 8 * 8 + 8
    omega
  | ⟨1, _⟩ =>
    show win0_2.index ⟨8 * ((i 0).val / 8) + 7, hlt⟩ 1 * 1 ≤ (i 1).val ∧ (i 1).val < win0_2.index ⟨8 * ((i 0).val / 8) + 7, hlt⟩ 1 * 1 + 1
    rw [(idx_out ⟨8 * ((i 0).val / 8) + 7, hlt⟩).2]
    omega

/-- So the array ends holding the scores. -/
theorem final_scores (c : Dev nD) : (dats m 0 c).arrAt 2 cfg0.N = scores m c :=
  (dats m 0 c).arrAt_eq_of_cover 2 (scores m c) (flushed_eq m c) covered

/-- The closing reshape of the array of scores is the vector of scores. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  funext j
  obtain ⟨B, rfl⟩ : ∃ B : Fin 64, (j : S64.Idx) = ix1 B := ⟨j 0, eq_ix1 j⟩
  show shapeCast S64 (Pipeline.withArrays (cfgs 0).spec c (V0 m c) (fun w => (dats m 0 c).arrAt w (cfgs 0).N)
      (Proc.tc.devRef main_v0)) shapeCasts_S64x1_S64 (ix1 B) = _
  refine (Idealize.ShloMosaic.ColumnCast.shapeCast_uncol_apply _ shapeCasts_S64x1_S64 B).trans ?_
  have e := (Pipeline.withArrays_arr spec0 launch0.win.arr_inj c (V0 m c) (fun w => (dats m 0 c).arrAt w cfg0.N) 2).trans
    (final_scores m c)
  exact congrFun e (ix2 B (0 : Fin 1))

/-- The run, read: the result vector ends holding the scores, the two argument arrays unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.PatchWord.Result

end
-- ==== Proof.RefScore.lean ====
/-
  The reference program, read at batch element `b`, is the score in one piece.

  The reference forms all similarities `sim b p w` (a `dot_general` contracting the 512 features), takes for each patch the
  maximum over the words and for each word the maximum over the patches (two reductions with a maximum body from `-∞`),
  sums each from `0`, divides by `4096` and by `256`, adds, and halves.  Each stage is read at one index; the two
  maximum reductions are read as folds of `max` from `⊥` over the reduced axis's coordinates, the result index with the
  coordinate put back being `(b, p, w)`.
-/
import proofs.«169027_j57724360458465_2_alg».proof.Proof.Score
import proofs.«169027_j57724360458465_2_alg».proof.Proof.Gen.ReferenceIdeal.Read
import Idealize.ShloMosaic.Lib.ValueIdx
import Idealize.ShloMosaic.PureOps.Ideal.Laws
import Idealize.ShloMosaic.PureOps.Reduce

noncomputable section

namespace Cert.PatchWord

open Idealize.ShloMosaic Idealize.ShloMosaic.ValueIdx Cert.ReferenceIdeal Cert.ReferenceIdeal.Read

/-! ## Indices -/

/-- The result index `(b, p)` with word `k` put back on the last axis is `(b, p, k)`. -/
theorem lift_words (h : S64x4096x256.Reduces [2] S64x4096) (b : Fin 64) (p : Fin 4096) (k : Fin (S64x4096x256.size 2)) :
    h.lift (ix2 b p) k = ix3 b p (⟨k.val, k.isLt⟩ : Fin 256) := by
  funext c; apply Fin.ext
  fin_cases c <;> rfl

/-- The result index `(b, w)` with patch `k` put back on the middle axis is `(b, k, w)`. -/
theorem lift_patches (h : S64x4096x256.Reduces [1] S64x256) (b : Fin 64) (w : Fin 256) (k : Fin (S64x4096x256.size 1)) :
    h.lift (ix2 b w) k = ix3 b (⟨k.val, k.isLt⟩ : Fin 4096) w := by
  funext c; apply Fin.ext
  fin_cases c <;> rfl

theorem lidx_ix3 (b : Fin 64) (p : Fin 4096) (w : Fin 256) (d : Fin 512) :
    lidx_main_v0 (ix3 b p w) d = ix3 b p d :=
  funext fun a => Fin.ext (by match a with | ⟨0, _⟩ => rfl | ⟨1, _⟩ => rfl | ⟨2, _⟩ => rfl)

theorem ridx_ix3 (b : Fin 64) (p : Fin 4096) (w : Fin 256) (d : Fin 512) :
    ridx_main_v0 (ix3 b p w) d = ix3 b w d :=
  funext fun a => Fin.ext (by match a with | ⟨0, _⟩ => rfl | ⟨1, _⟩ => rfl | ⟨2, _⟩ => rfl)

theorem idx_v2_ix1 (b : Fin 64) (p : Fin 4096) : idx_main_v2 (ix1 b) p = ix2 b p :=
  funext fun a => Fin.ext (by match a with | ⟨0, _⟩ => rfl | ⟨1, _⟩ => rfl)

theorem idx_v6_ix1 (b : Fin 64) (w : Fin 256) : idx_main_v6 (ix1 b) w = ix2 b w :=
  funext fun a => Fin.ext (by match a with | ⟨0, _⟩ => rfl | ⟨1, _⟩ => rfl)

/-! ## The stages -/

/-- The `dot_general` at `(b, p, w)` is the similarity of patch `p` and word `w`. -/
theorem v0_eq_sim (X : Patches) (T : Words) (b : Fin 64) (p : Fin 4096) (w : Fin 256) :
    val_main_v0 (F := Ideal) X T (ix3 b p w) = sim X T b p w := by
  rw [val_main_v0_apply]
  unfold sim
  refine Finset.sum_congr rfl fun d _ => ?_
  rw [lidx_ix3, ridx_ix3]

/-- The maximum reduction over the words, at `(b, p)`, is patch `p`'s best word. -/
theorem v1_eq_rowMax (X : Patches) (T : Words) (b : Fin 64) (p : Fin 4096) :
    val_main_v1 (F := Ideal) X T (ix2 b p) = rowMax X T b p := by
  have h : S64x4096x256.Reduces [2] S64x4096 := by decide
  unfold val_main_v1
  rw [Host.reduce_eq_fold_single FloatOps.maximumf _ _ Gen.reducesTo_S64x4096x256_S64x4096_d2 h Gen.h_S_]
  have hf : (val_main_v0 (F := Ideal) X T ∘ h.lift (ix2 b p)) = fun w : Fin 256 => sim X T b p w :=
    funext fun w => by
      show val_main_v0 (F := Ideal) X T (h.lift (ix2 b p) w) = _
      rw [lift_words, v0_eq_sim]
      rfl
  have hi : val_main_cst (F := Ideal) (Shape.Idx.first Gen.h_S_) = (⊥ : EReal) := by
    rw [val_main_cst_apply, Ideal.ofBits_def, negInf_eq]
  rw [hf, hi]
  rfl

/-- The maximum reduction over the patches, at `(b, w)`, is word `w`'s best patch. -/
theorem v5_eq_colMax (X : Patches) (T : Words) (b : Fin 64) (w : Fin 256) :
    val_main_v5 (F := Ideal) X T (ix2 b w) = colMax X T b w := by
  have h : S64x4096x256.Reduces [1] S64x256 := by decide
  unfold val_main_v5
  rw [Host.reduce_eq_fold_single FloatOps.maximumf _ _ Gen.reducesTo_S64x4096x256_S64x256_d1 h Gen.h_S_]
  have hf : (val_main_v0 (F := Ideal) X T ∘ h.lift (ix2 b w)) = fun p : Fin 4096 => sim X T b p w :=
    funext fun p => by
      show val_main_v0 (F := Ideal) X T (h.lift (ix2 b w) p) = _
      rw [lift_patches, v0_eq_sim]
      rfl
  have hi : val_main_cst_2 (F := Ideal) (Shape.Idx.first Gen.h_S_) = (⊥ : EReal) := by
    rw [val_main_cst_2_apply, Ideal.ofBits_def, negInf_eq]
  rw [hf, hi]
  rfl

/-! ## The reference is the score -/

/-- The reference's result at batch element `b` is the score of `b`. -/
theorem ref_eq_score (X : Patches) (T : Words) (b : Fin 64) :
    Cert.ReferenceIdeal.Read.val_main_v11 (F := Ideal) X T (ix1 b) = score X T b := by
  rw [val_main_v11_apply, val_main_v10_apply, val_main_cst_5_apply, val_main_v9_apply, val_main_v4_apply,
    val_main_v8_apply, val_main_v2_apply, val_main_v6_apply, val_main_v3_apply, val_main_v7_apply,
    val_main_cst_1_apply, val_main_cst_4_apply, val_main_cst_0_apply, val_main_cst_3_apply]
  simp only [Ideal.mulf_def, Ideal.addf_def, Ideal.hostDivf_def, Ideal.ofBits_def, Ideal.ofBits_zero_f32,
    idx_v2_ix1, idx_v6_ix1, v1_eq_rowMax, v5_eq_colMax]
  rfl

end Cert.PatchWord

end
-- ==== Proof.lean ====
/-
  A patch–word similarity score, computed tile by tile, equals the same score computed in one piece.

  For each of 64 batch elements `b` there are 4096 patches and 256 words, each a vector of 512 features. With
  `sim b p w = ∑ d, X[b,p,d] · T[b,w,d]`, the score of `b` is
      0.5 · ( (∑ p, max_w sim b p w) / 4096  +  (∑ w, max_p sim b p w) / 256 ),
  every maximum taken from `-∞` and every sum from `0`, all in the extended reals.

  One program computes this in one piece: the whole similarity tensor, two maximum-reductions, two sums, two
  quotients, a sum and a product (Proof/RefScore.lean reads it operation by operation: `ref_eq_score`).

  The other walks a grid of 8 batch groups by 8 patch tiles. Within a group it keeps, across the tiles, a running
  sum of each tile's sum of per-patch maxima, a running per-word maximum of each tile's per-word maxima, and a copy of
  the group's words; at the group's last tile it multiplies the running sum by `2⁻¹²`, divides the sum of the running
  maxima by 256, adds, halves, and writes the eight scores; a closing reshape turns the `[64, 1]` array of scores into
  the `[64]` vector. Proof/Pieces.lean says what one run of the body leaves in each buffer, Proof/Payloads.lean reads
  those terms at an index as plain sums and maxima, Proof/Blocks.lean says which array elements a grid point's blocks
  hold, Proof/Carried.lean carries the three buffers' contents through the grid by induction on the point, and
  Proof/Result.lean reads the written blocks back as the array of scores and the reshape as the vector of scores.

  The two agree because a sum over 4096 patches is the sum over 8 tiles of the sums over 512, a maximum over 4096 patches
  the maximum over 8 tiles of the maxima over 512 (`-∞` is neutral for the maximum, `0` for the sum), and dividing by
  4096 is multiplying by `2⁻¹²` on every extended real (Proof/Tiling.lean: `scoreTiled_eq`). None of these laws needs the
  inputs to be finite. The rounding of the features and words to a narrower float format before the product, and of
  nothing else, is the identity on extended reals.

  The three programs each run to the end with their arguments unchanged (the frames); the narrower-format program is
  the word-level program's own text read at the extended reals, with nothing rewritten (`preserves` is `True`).
-/
import proofs.«169027_j57724360458465_2_alg».proof.Defs
import proofs.«169027_j57724360458465_2_alg».proof.Proof.Gen.Kernel
import proofs.«169027_j57724360458465_2_alg».proof.Proof.Gen.Kernel.Frame
import proofs.«169027_j57724360458465_2_alg».proof.Proof.Gen.KernelIdeal
import proofs.«169027_j57724360458465_2_alg».proof.Proof.Gen.KernelIdeal.Frame
import proofs.«169027_j57724360458465_2_alg».proof.Proof.Gen.ReferenceIdeal
import proofs.«169027_j57724360458465_2_alg».proof.Proof.Gen.ReferenceIdeal.Run
import proofs.«169027_j57724360458465_2_alg».proof.Proof.Gen.ReferenceIdeal.Read
import proofs.«169027_j57724360458465_2_alg».proof.Proof.Gen.Pre_finite_inputs
import proofs.«169027_j57724360458465_2_alg».proof.Proof.Result
import proofs.«169027_j57724360458465_2_alg».proof.Proof.RefScore
import Idealize.ShloMosaic.Adequacy
import Idealize.ShloMosaic.Init

noncomputable section

namespace Cert.Proof

open Idealize.ShloMosaic Idealize.SL.Sem Idealize.ShloMosaic.ValueIdx

/-- The word-level program runs to the end and leaves its arguments as they were. -/
theorem frame_kernel : Cert.frame_Kernel := fun m ρ _ => Cert.Kernel.Gen.frame m ρ

/-- So does the same program read at the extended reals. -/
theorem frame_kernelIdeal : Cert.frame_KernelIdeal := fun m ρ _ => Cert.KernelIdeal.Gen.frame m ρ

/-- So does the one-piece program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the word-level text and its reading at the extended reals. -/
theorem preserves : Cert.preserves_Kernel_KernelIdeal := trivial

/-- From arguments that agree, the tiled program's result vector and the one-piece program's are both the vector of
    scores of those arguments. -/
theorem algebraic : Cert.algebraic_KernelIdeal_ReferenceIdeal := by
  intro m ρ m' ρ' _ hagree
  refine ⟨fun c => Cert.PatchWord.Result.result m c, Cert.PatchWord.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  funext j
  obtain ⟨b, rfl⟩ : ∃ b : Fin 64, (j : Cert.ReferenceIdeal.S64.Idx) = ix1 b := ⟨j 0, eq_ix1 j⟩
  exact Cert.PatchWord.ref_eq_score _ _ b

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
